-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x4096 : Shape := ⟨3, ![4096, 2, 4096]⟩
abbrev S_ : Shape := ⟨0, ![]⟩

class Facts : Prop where
  bcast_S_S4096x2x4096 : S_.BroadcastsInDim S4096x2x4096 (![] : Fin 0 → Fin S4096x2x4096.rank)
  reducesTo_S4096x2x4096_S_d0_1_2 : S4096x2x4096.ReducesTo [0, 1, 2] S_
  h_S_ : 0 < S_.numel

variable [Facts]

def fn {F : FTy → Type} [FloatOps F] (main_arg0 : FVec F S4096x2x4096 .f32) (main_arg1 : FVec F S4096x2x4096 .f32) : IVec S_ 1 :=
  let main_v0 : FVec F S4096x2x4096 .f32 := Host.absf main_arg0
  let main_cst : FVec F S_ .f32 := constant S_ .f32 0x7F800000#32
  let main_v1 : FVec F S4096x2x4096 .f32 := broadcastInDim S4096x2x4096 ![] bcast_S_S4096x2x4096 main_cst
  let main_v2 : IVec S4096x2x4096 1 := cmpf .olt main_v0 main_v1
  let main_c : IVec S_ 1 := constantI S_ 1 1#1
  let main_v3 : IVec S_ 1 := (fun x v => Host.reduce IntOp.andi x v reducesTo_S4096x2x4096_S_d0_1_2 h_S_) main_v2 main_c
  let main_v4 : FVec F S4096x2x4096 .f32 := Host.absf main_arg1
  let main_cst_0 : FVec F S_ .f32 := constant S_ .f32 0x7F800000#32
  let main_v5 : FVec F S4096x2x4096 .f32 := broadcastInDim S4096x2x4096 ![] bcast_S_S4096x2x4096 main_cst_0
  let main_v6 : IVec S4096x2x4096 1 := cmpf .olt main_v4 main_v5
  let main_c_1 : IVec S_ 1 := constantI S_ 1 1#1
  let main_v7 : IVec S_ 1 := (fun x v => Host.reduce IntOp.andi x v reducesTo_S4096x2x4096_S_d0_1_2 h_S_) main_v6 main_c_1
  let main_v8 : IVec S_ 1 := andi main_v3 main_v7
  main_v8
-- ==== Kernel.lean ====
abbrev S4096x2x4096 : Shape := ⟨3, ![4096, 2, 4096]⟩
abbrev S4096x8192 : Shape := ⟨2, ![4096, 8192]⟩
abbrev S4096x128 : Shape := ⟨2, ![4096, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S4096x6 : Shape := ⟨2, ![4096, 6]⟩
abbrev S4096x1x6 : Shape := ⟨3, ![4096, 1, 6]⟩
abbrev S4096x3 : Shape := ⟨2, ![4096, 3]⟩
abbrev S_ : Shape := ⟨0, ![]⟩

abbrev nBuf : Space → Nat
  | .hbm => 36
  | .vmem => 6
  | .smem => 0
  | _ => 0

abbrev bufTy : (tb : Table) → Fin (tcTables nBuf tb) → BufTy
  | .hbm, ⟨0, _⟩ => ⟨S4096x2x4096, .f32⟩
  | .hbm, ⟨1, _⟩ => ⟨S4096x2x4096, .f32⟩
  | .hbm, ⟨2, _⟩ => ⟨S4096x8192, .f32⟩
  | .hbm, ⟨3, _⟩ => ⟨S4096x128, .f32⟩
  | .hbm, ⟨4, _⟩ => ⟨S4096x6, .f32⟩
  | .hbm, ⟨5, _⟩ => ⟨S4096x1x6, .f32⟩
  | .hbm, ⟨6, _⟩ => ⟨S4096x6, .f32⟩
  | .hbm, ⟨7, _⟩ => ⟨S4096x3, .f32⟩
  | .hbm, ⟨8, _⟩ => ⟨S_, .f32⟩
  | .hbm, ⟨9, _⟩ => ⟨S4096x3, .f32⟩
  | .hbm, ⟨10, _⟩ => ⟨S4096x3, .f32⟩
  | .hbm, ⟨11, _⟩ => ⟨S4096x3, .f32⟩
  | .hbm, ⟨12, _⟩ => ⟨S_, .f32⟩
  | .hbm, ⟨13, _⟩ => ⟨S4096x3, .f32⟩
  | .hbm, ⟨14, _⟩ => ⟨S4096x3, .f32⟩
  | .hbm, ⟨15, _⟩ => ⟨S4096x3, .f32⟩
  | .hbm, ⟨16, _⟩ => ⟨S_, .f32⟩
  | .hbm, ⟨17, _⟩ => ⟨S4096x3, .f32⟩
  | .hbm, ⟨18, _⟩ => ⟨S4096x3, .f32⟩
  | .hbm, ⟨19, _⟩ => ⟨S4096x3, .f32⟩
  | .hbm, ⟨20, _⟩ => ⟨S_, .f32⟩
  | .hbm, ⟨21, _⟩ => ⟨S4096x3, .f32⟩
  | .hbm, ⟨22, _⟩ => ⟨S4096x3, .f32⟩
  | .hbm, ⟨23, _⟩ => ⟨S4096x3, .f32⟩
  | .hbm, ⟨24, _⟩ => ⟨S4096x3, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x3, .f32⟩
  | .hbm, ⟨30, _⟩ => ⟨S4096x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | _, _ => ⟨S4096x2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x2x4096_S4096x8192 : S4096x2x4096.ShapeCasts S4096x8192
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  slices_S512x4096_o0_0_S512x128 : S512x4096.Slices ![0, 0] S512x128
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S4096x128_S4096x6_0_0 : S4096x128.Slices ![0, 0] S4096x6
  slices_S4096x2x4096_S4096x1x6_0_0_0 : S4096x2x4096.Slices ![0, 0, 0] S4096x1x6
  shapeCasts_S4096x1x6_S4096x6 : S4096x1x6.ShapeCasts S4096x6
  slices_S4096x6_S4096x3_0_0 : S4096x6.Slices ![0, 0] S4096x3
  bcast_S_S4096x3 : S_.BroadcastsInDim S4096x3 (![] : Fin 0 → Fin S4096x3.rank)
  slices_S4096x6_S4096x3_0_3 : S4096x6.Slices ![0, 3] S4096x3
  reducesTo_S4096x3_S_d0_1 : S4096x3.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x8192.size a
  hwx0_0 : ∀ i : grid0.Coords, EltTy.bits .f32 = 32 ∨ (Rect.block (s := S4096x8192) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x8192.size a
  hwx0_1 : ∀ i : grid0.Coords, EltTy.bits .f32 = 32 ∨ (Rect.block (s := S4096x8192) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2x4096 : Shape := ⟨3, ![4096, 2, 4096]⟩
abbrev S_ : Shape := ⟨0, ![]⟩
abbrev S4096x1x4096 : Shape := ⟨3, ![4096, 1, 4096]⟩
abbrev S4096x4096 : Shape := ⟨2, ![4096, 4096]⟩
abbrev S4096 : Shape := ⟨1, ![4096]⟩
abbrev S4096x1 : Shape := ⟨2, ![4096, 1]⟩
abbrev S4096x3 : Shape := ⟨2, ![4096, 3]⟩
abbrev S4096x1x3 : Shape := ⟨3, ![4096, 1, 3]⟩

abbrev nBuf : Space → Nat
  | .hbm => 55
  | .vmem => 0
  | .smem => 0
  | _ => 0

abbrev bufTy : (tb : Table) → Fin (tcTables nBuf tb) → BufTy
  | .hbm, ⟨0, _⟩ => ⟨S4096x2x4096, .f32⟩
  | .hbm, ⟨1, _⟩ => ⟨S4096x2x4096, .f32⟩
  | .hbm, ⟨2, _⟩ => ⟨S_, .f32⟩
  | .hbm, ⟨3, _⟩ => ⟨S4096x2x4096, .f32⟩
  | .hbm, ⟨4, _⟩ => ⟨S4096x2x4096, .f32⟩
  | .hbm, ⟨5, _⟩ => ⟨S4096x1x4096, .f32⟩
  | .hbm, ⟨6, _⟩ => ⟨S4096x4096, .f32⟩
  | .hbm, ⟨7, _⟩ => ⟨S4096x1x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S4096x4096, .f32⟩
  | .hbm, ⟨23, _⟩ => ⟨S4096x4096, .f32⟩
  | .hbm, ⟨24, _⟩ => ⟨S4096x3, .f32⟩
  | .hbm, ⟨25, _⟩ => ⟨S_, .f32⟩
  | .hbm, ⟨26, _⟩ => ⟨S4096x3, .f32⟩
  | .hbm, ⟨27, _⟩ => ⟨S4096x3, .f32⟩
  | .hbm, ⟨28, _⟩ => ⟨S4096x3, .f32⟩
  | .hbm, ⟨29, _⟩ => ⟨S_, .f32⟩
  | .hbm, ⟨30, _⟩ => ⟨S4096x3, .f32⟩
  | .hbm, ⟨31, _⟩ => ⟨S4096x3, .f32⟩
  | .hbm, ⟨32, _⟩ => ⟨S4096x1x3, .f32⟩
  | .hbm, ⟨33, _⟩ => ⟨S4096x3, .f32⟩
  | .hbm, ⟨34, _⟩ => ⟨S_, .f32⟩
  | .hbm, ⟨35, _⟩ => ⟨S4096x3, .f32⟩
  | .hbm, ⟨36, _⟩ => ⟨S4096x3, .f32⟩
  | .hbm, ⟨37, _⟩ => ⟨S4096x1x3, .f32⟩
  | .hbm, ⟨38, _⟩ => ⟨S4096x3, .f32⟩
  | .hbm, ⟨39, _⟩ => ⟨S_, .f32⟩
  | .hbm, ⟨40, _⟩ => ⟨S4096x3, .f32⟩
  | .hbm, ⟨41, _⟩ => ⟨S4096x3, .f32⟩
  | .hbm, ⟨42, _⟩ => ⟨S4096x3, .f32⟩
  | .hbm, ⟨43, _⟩ => ⟨S4096x3, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096x3, .f32⟩
  | .hbm, ⟨49, _⟩ => ⟨S4096x3, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S4096x2x4096 : S_.BroadcastsInDim S4096x2x4096 (![] : Fin 0 → Fin S4096x2x4096.rank)
  slices_S4096x2x4096_S4096x1x4096_0_0_0 : S4096x2x4096.Slices ![0, 0, 0] S4096x1x4096
  shapeCasts_S4096x1x4096_S4096x4096 : S4096x1x4096.ShapeCasts S4096x4096
  slices_S4096x2x4096_S4096x1x4096_0_1_0 : S4096x2x4096.Slices ![0, 1, 0] S4096x1x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  slices_S4096x4096_S4096x3_0_0 : S4096x4096.Slices ![0, 0] S4096x3
  bcast_S_S4096x3 : S_.BroadcastsInDim S4096x3 (![] : Fin 0 → Fin S4096x3.rank)
  slices_S4096x4096_S4096x3_0_3 : S4096x4096.Slices ![0, 3] S4096x3
  slices_S4096x2x4096_S4096x1x3_0_0_0 : S4096x2x4096.Slices ![0, 0, 0] S4096x1x3
  shapeCasts_S4096x1x3_S4096x3 : S4096x1x3.ShapeCasts S4096x3
  slices_S4096x2x4096_S4096x1x3_0_0_3 : S4096x2x4096.Slices ![0, 0, 3] S4096x1x3
  reducesTo_S4096x3_S_d0_1 : S4096x3.ReducesTo [0, 1] S_

variable [Facts₀]

class Facts : Prop extends Facts₀ where

variable [Facts]
-- ==== Proof.KBody.lean ====
/-
  The kernel's body at one grid point.

  The program views the first argument [4096, 2, 4096] as a [4096, 8192] array, whose columns 4096..8191 are channel 1
  and whose columns 0..4095 are channel 0.  Grid point t (of 8) is handed two blocks of that ONE array — rows
  512·t .. 512·t+511 of channel 1 in full (block column 1 of width 4096) and the same rows of the first 128 columns of
  channel 0 (block column 0 of width 128) — and a [512, 128] block of the result to fill.  The body reads both input
  blocks whole and overwrites the output block whole with one value computed from them; nothing else is touched.
-/
import proofs.«111559_j61589831024942_2_alg».proof.Proof.Gen.Kernel.Launch
import proofs.«111559_j61589831024942_2_alg».proof.Proof.Gen.Kernel.Skeleton
import proofs.«111559_j61589831024942_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffers at launch, as the host operations' valuation; -/
abbrev V₀ (c : Dev nD) : Valuation τ sig (Elt F) := fun b => (s₀ m ρ).mem ((c : Dev nD), b)
/-- and when the region is entered: the one reshape before it has run. -/
abbrev V (c : Dev nD) (b : Ref sig .tc) : Buf (Elt F) ((c : Thread nD τ).loc b) := StableHlo.after hostOps0 (V₀ m ρ c) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## What the body leaves in the output block -/

/-- The whole [512, 4096] block and the whole [512, 128] block, as rectangles. -/
abbrev rWide : Rect S512x4096 := Rect.unit (s := S512x4096) ![0, 0] S512x4096.size inb_S512x4096_S512x4096_0_0
abbrev rHead : Rect S512x128 := Rect.unit (s := S512x128) ![0, 0] S512x128.size inb_S512x128_S512x128_0_0

/-- The output block after the body, from the two input blocks: one store, of the whole block. -/
def out2 (x0 : Vec F S512x4096 .f32) (x1 : Vec F S512x128 .f32) : Vec F S512x128 .f32 :=
  View.canon [⟨rHead, k0_pay1 (View.ld x0 rWide) (View.ld x1 rHead)⟩]

/-- That one store covers the block. -/
theorem cover2 (p0 : Vec F S512x128 .f32) (y : S512x128.Idx) :
    ∃ pc ∈ ([⟨rHead, p0⟩] : List (View.Piece (Elt F) S512x128 .f32)), y ∈ pc.1.set :=
  View.cover_of_tiled [⟨rHead, p0⟩] S512x128.size (by rfl) y

/-! ## The body's triple -/

set_option maxHeartbeats 1000000 in
/-- On whole staging memrefs, the inputs' at contents x0, x1 and the output's at anything, the body runs to the
    continuation holding the inputs' as they were and the output's at `out2 x0 x1`. -/
theorem sound_kernel (c : Dev nD) (E : Set ℕ) (i : grid0.Coords)
    (arg1 : Memref sig .tc .vmem S512x4096 .f32) (harg1 : arg1.IsWhole) (arg2 : Memref sig .tc .vmem S512x128 .f32) (harg2 : arg2.IsWhole)
    (arg3 : Memref sig .tc .vmem S512x128 .f32) (harg3 : arg3.IsWhole)
    (x0 : Vec F S512x4096 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__fused_norm_signflip_kernel i arg1 harg1 arg2 harg2 arg3 harg3) K := by
  simp only [cc0__fused_norm_signflip_kernel_eq_skeleton]; unfold cc0__fused_norm_signflip_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Cert.Kernel.Run

end
-- ==== Proof.KData.lean ====
/-
  The kernel program's run, part one: the proof data of its one pipeline and the body at every grid point.

  Two of the three windows read ONE array (the first argument viewed as [4096, 8192]): the pipeline holds that array
  at two half shares, one per reading window, and the result's array at the full share.  An input block is found
  as fetched at every point; the output block is left at the value the body computes from the two input blocks.
-/
import proofs.«111559_j61589831024942_2_alg».proof.Proof.Gen.Kernel.Launch
import proofs.«111559_j61589831024942_2_alg».proof.Proof.Gen.Kernel.Skeleton
import proofs.«111559_j61589831024942_2_alg».proof.Proof.Gen.Kernel.Points
import proofs.«111559_j61589831024942_2_alg».proof.Proof.KBody
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core c: the arrays as the region finds them; after the body at point t each input's buffer at
    its block and the output's at `out2` of the two; the invariant only the scoped buffers no window stages (there are
    none); nothing owed; the shared array at a half share per reading window, the result's array whole. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => out2 (iblk m ρ c 0 t) (iblk m ρ c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = out2 (iblk m ρ c 0 t) (iblk m ρ c 1 t) := by dsimp only [dats]

/-- An input window's current staging buffer holds its block at every point. -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

/-- What the body is called with at point t, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t))

/-- The body at any point: the inputs' buffers hold their blocks, so the body's triple applies; the invariant and the
    core's tallies pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1]
  rw [show (dats m ρ 0 c).Φ t.succ = (dats m ρ 0 c).Φ t.castSucc from rfl,
    show (dats m ρ 0 c).owesAt () t.succ = (dats m ρ 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m ρ c 0 t) (iblk m ρ c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every grid point: the three windows' buffers taken one by one. -/
theorem body_obligation (c : Dev nD) : BodyObligation (dats (F := F) m ρ 0 c) (defs₀ (F := F)) Variants.none () Set.univ := fun t => by
  rw [bigSep_W0, bigSep_W0]
  exact sound_body m ρ c t

end Cert.Kernel.Run

end
-- ==== Proof.KRun.lean ====
/-
  The kernel program's run, part two: the launch.

  @main is one reshape, the kernel region, and thirty-two operations on the region's result and the second argument.
  The reshaped argument is read by the region through two windows: at the region's entry its buffer, held whole, is
  dealt to the two windows at a half each, and at the exit the two halves, still at the contents they were dealt at
  (an input is never written), are the whole buffer again.  The result's array goes in whole and comes out at what
  the eight write-backs made of it.  Every other buffer bypasses the region.
-/
import proofs.«111559_j61589831024942_2_alg».proof.Proof.Gen.Kernel.Launch
import proofs.«111559_j61589831024942_2_alg».proof.Proof.Gen.Kernel.Skeleton
import proofs.«111559_j61589831024942_2_alg».proof.Proof.Gen.Kernel.Points
import proofs.«111559_j61589831024942_2_alg».proof.Proof.KData
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array read through two windows -/

/-- The buffers behind the three windows' arrays: the reshaped argument (twice) and the result. -/
theorem image_arr : Finset.univ.image (Pipeline.arrRef spec0) = {main_v0, main_v1} := by decide

theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare := rfl

/-- The pipeline's arrays, window by window: the shared array at its two halves, the result's array whole. -/
theorem arrays_eq3 (c : Dev nD) (X : (w : Fin cfg0.W) → Buf (Elt F) ((cfg0.win w).arr.view.loc (c : Thread nD τ))) :
    (dats m ρ 0 c).arrays X = iprop((((c : Thread nD τ).loc main_v0) ↦{fullShare.left} X 0)
      ∗ (((c : Thread nD τ).loc main_v0) ↦{fullShare.right} X 1) ∗ (((c : Thread nD τ).loc main_v1) ↦{fullShare} X 2)) := by
  unfold Dat.arrays
  rw [bigSep_W0, share0, share1, share2]
  have e0 : (cfg0.win 0).arr.view.set = Finset.univ := (arr_whole0 0).set_eq_univ
  have e2 : (cfg0.win 2).arr.view.set = Finset.univ := (arr_whole0 2).set_eq_univ
  rw [e0, e2]

/-- The two distinct buffers behind the arrays, each whole. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  unfold Pipeline.arrBufs
  rw [image_arr, bigSep_insert (by decide), bigSep_singleton]
  rfl

/-- The array two windows read, held whole, is held by each window at a half; the result's array whole. -/
theorem arrays_of_bufs (c : Dev nD) (W : (b : Ref sig .tc) → Buf (Elt F) ((c : Thread nD τ).loc b))
    (X : (w : Fin cfg0.W) → Buf (Elt F) ((cfg0.win w).arr.view.loc (c : Thread nD τ)))
    (h0 : X 0 = W main_v0) (h1 : X 1 = W main_v0) (h2 : X 2 = W main_v1) :
    (Pipeline.arrBufs (Ix := Unit) (Name := ℕ) (U := UR sig nD τ) (Lvl := ℕ) spec0 c W : sProp 𝕄) ⊢ (dats m ρ 0 c).arrays X := by
  rw [arrBufs_eq, arrays_eq3, h0, h1, h2]
  refine (sep_mono (pointsTo_share (PosShare.mem_left_op_right fullShare)).1 .rfl).trans ?_
  iintro ⟨⟨Hl, Hr⟩, H1⟩
  isplitl [Hl]; · iexact Hl
  isplitl [Hr]; · iexact Hr
  iexact H1

/-- And back: two halves at the same contents are the whole. -/
theorem bufs_of_arrays (c : Dev nD) (W : (b : Ref sig .tc) → Buf (Elt F) ((c : Thread nD τ).loc b))
    (X : (w : Fin cfg0.W) → Buf (Elt F) ((cfg0.win w).arr.view.loc (c : Thread nD τ)))
    (h0 : X 0 = W main_v0) (h1 : X 1 = W main_v0) (h2 : X 2 = W main_v1) :
    (dats m ρ 0 c).arrays X ⊢ (Pipeline.arrBufs (Ix := Unit) (Name := ℕ) (U := UR sig nD τ) (Lvl := ℕ) spec0 c W : sProp 𝕄) := by
  rw [arrBufs_eq, arrays_eq3, h0, h1, h2]
  refine BIBase.Entails.trans ?_ (sep_mono (pointsTo_share (PosShare.mem_left_op_right fullShare)).2 .rfl)
  iintro ⟨Hl, Hr, H1⟩
  isplitl [Hl Hr]
  · isplitl [Hl]; · iexact Hl
    iexact Hr
  iexact H1

/-! ## The state after the region -/

open Classical in
/-- A core's buffers when the region is left: the result's array at what the write-backs made of it, every other
    buffer as the region found it. -/
def W1 (c : Dev nD) : Valuation τ sig (Elt F) := fun b =>
  if h : Proc.devRef .tc main_v1 = b then
    cast (congrArg (fun b' : DevRef τ sig => b'.ty.Contents (Elt F)) h) ((dats m ρ 0 c).arrAt 2 cfg0.N)
  else StableHlo.after hostOps0 (V₀ m ρ c) b

theorem W1_result (c : Dev nD) : W1 m ρ c (Proc.devRef .tc main_v1) = (dats m ρ 0 c).arrAt 2 cfg0.N := by
  unfold W1; rw [dif_pos rfl]; rfl

theorem W1_other (c : Dev nD) (b : Ref sig .tc) (hb : main_v1 ≠ b) :
    W1 m ρ c (Proc.devRef .tc b) = StableHlo.after hostOps0 (V₀ m ρ c) (Proc.devRef .tc b) := by
  unfold W1; rw [dif_neg fun e => hb (Proc.devRef_injective _ e)]

/-- and at the end: the thirty-two operations after the region have run. -/
abbrev Wend (c : Dev nD) : Valuation τ sig (Elt F) := StableHlo.after hostOps1 (W1 m ρ c)

/-! ## The launch: @main as a host stretch, the region, a host stretch -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core's tallies. -/
abbrev R (c : Dev nD) : sProp 𝕄 := iprop(∃ W, owes (c : Thread nD τ) (0 : CellTallies nD τ sig Unit) W)

/-- The reshape before the region, over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The operations after the region, from the state the region leaves. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m ρ) R

/-- The valuation the region is entered at, as the pipeline's lemmas take it: over the core's references. -/
abbrev W1r (c : Dev nD) (b : Ref sig .tc) : Buf (Elt F) ((c : Thread nD τ).loc b) := W1 m ρ c b

/-- Off the result's array the state after the region is the state before it. -/
theorem rest_eq (c : Dev nD) :
    (Pipeline.unscopedRest (Ix := Unit) (Name := ℕ) (U := UR sig nD τ) (Lvl := ℕ) spec0 c (W1r m ρ c) : sProp 𝕄)
      = Pipeline.unscopedRest spec0 c (V m ρ c) := by
  unfold Pipeline.unscopedRest
  refine bigSep_congr fun b hb => ?_
  have hne : main_v1 ≠ b := fun e => (Finset.mem_sdiff.mp hb).2 (e ▸ Finset.mem_image.mpr ⟨2, Finset.mem_univ _, rfl⟩)
  rw [show W1r m ρ c b = V m ρ c b from W1_other m ρ c b hne]

set_option backward.isDefEq.respectTransparency.types false in
/-- THE REGION: entered from what the reshape left — the two arrays into the pipeline, the shared one split between its
    two readers, every other buffer bypassing —, left with the result's array at its final contents and the shared
    array whole again. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (W1 m ρ c) ∗ R c)
  X c := iprop(emp)
  Y c := iprop(emp)
  Z c := Pipeline.unscopedRest spec0 c (V m ρ c)
  hentry c := by
    rw [show StableHlo.held (c : Thread nD τ) (Pipeline.ucRefs τ sig) (StableHlo.after hostOps0 (V₀ m ρ c)) = unscopedBufs c (V m ρ c)
        from (Pipeline.unscopedBufs_held c _).symm,
      Pipeline.unscopedBufs_split₀ (Pipeline.pin (pcfgs (F := F)) adm) 0 winFacts₀0.arr_unscoped c (V m ρ c)]
    have hs := arrays_of_bufs m ρ c (V m ρ c) ((dats m ρ 0 c).arrAt · 0) rfl rfl rfl
    iintro ⟨⟨⟨Ha, Hrest⟩, HO⟩, -, -⟩
    ihave Harr := hs $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [Pipeline.ownSems0_none, show (dats m ρ 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (W1 m ρ c) = unscopedBufs c (W1r m ρ c)
        from (Pipeline.unscopedBufs_held c _).symm,
      Pipeline.unscopedBufs_split₀ (Pipeline.pin (pcfgs (F := F)) adm) 0 winFacts₀0.arr_unscoped c (W1r m ρ c), rest_eq]
    have hs := bufs_of_arrays m ρ c (W1r m ρ c) ((dats m ρ 0 c).arrAt · cfg0.N)
      (((dats m ρ 0 c).arrAt_in 0 rfl _).trans (W1_other m ρ c main_v0 (by decide)).symm)
      (((dats m ρ 0 c).arrAt_in 1 rfl _).trans (W1_other m ρ c main_v0 (by decide)).symm)
      (W1_result m ρ c).symm
    iintro ⟨Ha, HO, -, HZ⟩
    ihave Hb := hs $$ Ha
    imodintro
    isplitr [HO]
    · isplitl [Hb]; · iexact Hb
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) :=
  [.host (seg0 m ρ), .region (reg0 m ρ), .host (seg1 m ρ)]

/-- The only ghost state in play is that of the pipeline's staging cells. -/
abbrev EP : Emb (UR sig nD τ) (MT nD τ sig Unit (Elt F) ℕ (UR sig nD τ) ℕ) := emb₁

set_option backward.isDefEq.respectTransparency.types false in
/-- At the compiled mesh, for any float values, from any memory with zero counters: every weakly fair execution of @main
    terminates, nothing faulting, and every unscoped buffer ends at the operations' value `Wend`. -/
theorem run_main : θ_run defs (onTc (τ := τ) (main (F := F))) (s₀ m ρ)
    (fun r => ∀ c : Dev nD, ∀ b ∈ Pipeline.ucRefs τ sig, r.2.mem (((c : Thread nD τ)).1, b) = Wend m ρ c b) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Wend m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c)
        from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = Wend m ρ c b)
    (hfin := fun c s' => by
      iintro ⟨Hh, HSI⟩
      unfold StableHlo.held
      imodintro
      iapply (pointsTo_read_all (Pipeline.ucRefs τ sig) (fun b => (((c : Thread nD τ)).1, b)) (Wend m ρ c) s')
      isplitl [Hh] <;> iassumption)
    (hQ := fun _ h => h)

end Cert.Kernel.Run

end
-- ==== Proof.KFrame.lean ====
/-
  The kernel program's run, part three: the argument arrays at the end.

  Neither the reshape, nor the region (which reads the reshaped copy and writes only the result's array), nor any of the
  thirty-two operations after it writes an argument array: each ends as launched.
-/
import proofs.«111559_j61589831024942_2_alg».proof.Proof.Gen.Kernel.Launch
import proofs.«111559_j61589831024942_2_alg».proof.Proof.Gen.Kernel.Skeleton
import proofs.«111559_j61589831024942_2_alg».proof.Proof.Gen.Kernel.Points
import proofs.«111559_j61589831024942_2_alg».proof.Proof.KRun
import Idealize.ShloMosaic.Lib.StableHlo.Run
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open Idealize.ShloMosaic.StableHlo

/-- An unscoped reference of the core is among the buffers the run accounts for. -/
theorem mem_uc (b : Ref sig .tc) (hb : (Proc.devRef (τ := τ) .tc b).isScoped = false) :
    Proc.devRef (τ := τ) .tc b ∈ Pipeline.ucRefs τ sig :=
  Finset.mem_filter.mpr ⟨StableHlo.devRef_mem_tcRefs b, by rw [hb]; exact Bool.false_ne_true⟩

/-- The first argument at the end is the first argument at launch. -/
theorem Wend_arg0 (c : Dev nD) : Wend m ρ c (Proc.devRef .tc main_arg0) = m ((c : Thread nD τ).loc main_arg0) := by
  show StableHlo.after hostOps1 (W1 m ρ c) (Proc.devRef .tc main_arg0) = _
  after_results_simp
  rw [W1_other m ρ c main_arg0 (by decide)]
  after_results

/-- The second argument at the end is the second argument at launch. -/
theorem Wend_arg1 (c : Dev nD) : Wend m ρ c (Proc.devRef .tc main_arg1) = m ((c : Thread nD τ).loc main_arg1) := by
  show StableHlo.after hostOps1 (W1 m ρ c) (Proc.devRef .tc main_arg1) = _
  after_results_simp
  rw [W1_other m ρ c main_arg1 (by decide)]
  after_results

/-- THE FRAME: every weakly fair execution of @main terminates, nothing faulting, with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 rfl)).trans (Wend_arg0 m ρ c), (h c _ (mem_uc main_arg1 rfl)).trans (Wend_arg1 m ρ c)⟩)
    (run_main m ρ)

end Cert.Kernel.Run

end
-- ==== Proof.KIBody.lean ====
/-
  The kernel's body at one grid point.

  The program views the first argument [4096, 2, 4096] as a [4096, 8192] array, whose columns 4096..8191 are channel 1
  and whose columns 0..4095 are channel 0.  Grid point t (of 8) is handed two blocks of that ONE array — rows
  512·t .. 512·t+511 of channel 1 in full (block column 1 of width 4096) and the same rows of the first 128 columns of
  channel 0 (block column 0 of width 128) — and a [512, 128] block of the result to fill.  The body reads both input
  blocks whole and overwrites the output block whole with one value computed from them; nothing else is touched.
-/
import proofs.«111559_j61589831024942_2_alg».proof.Proof.Gen.KernelIdeal.Launch
import proofs.«111559_j61589831024942_2_alg».proof.Proof.Gen.KernelIdeal.Skeleton
import proofs.«111559_j61589831024942_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffers at launch, as the host operations' valuation; -/
abbrev V₀ (c : Dev nD) : Valuation τ sig (Elt F) := fun b => (s₀ m ρ).mem ((c : Dev nD), b)
/-- and when the region is entered: the one reshape before it has run. -/
abbrev V (c : Dev nD) (b : Ref sig .tc) : Buf (Elt F) ((c : Thread nD τ).loc b) := StableHlo.after hostOps0 (V₀ m ρ c) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## What the body leaves in the output block -/

/-- The whole [512, 4096] block and the whole [512, 128] block, as rectangles. -/
abbrev rWide : Rect S512x4096 := Rect.unit (s := S512x4096) ![0, 0] S512x4096.size inb_S512x4096_S512x4096_0_0
abbrev rHead : Rect S512x128 := Rect.unit (s := S512x128) ![0, 0] S512x128.size inb_S512x128_S512x128_0_0

/-- The output block after the body, from the two input blocks: one store, of the whole block. -/
def out2 (x0 : Vec F S512x4096 .f32) (x1 : Vec F S512x128 .f32) : Vec F S512x128 .f32 :=
  View.canon [⟨rHead, k0_pay1 (View.ld x0 rWide) (View.ld x1 rHead)⟩]

/-- That one store covers the block. -/
theorem cover2 (p0 : Vec F S512x128 .f32) (y : S512x128.Idx) :
    ∃ pc ∈ ([⟨rHead, p0⟩] : List (View.Piece (Elt F) S512x128 .f32)), y ∈ pc.1.set :=
  View.cover_of_tiled [⟨rHead, p0⟩] S512x128.size (by rfl) y

/-! ## The body's triple -/

set_option maxHeartbeats 1000000 in
/-- On whole staging memrefs, the inputs' at contents x0, x1 and the output's at anything, the body runs to the
    continuation holding the inputs' as they were and the output's at `out2 x0 x1`. -/
theorem sound_kernel (c : Dev nD) (E : Set ℕ) (i : grid0.Coords)
    (arg1 : Memref sig .tc .vmem S512x4096 .f32) (harg1 : arg1.IsWhole) (arg2 : Memref sig .tc .vmem S512x128 .f32) (harg2 : arg2.IsWhole)
    (arg3 : Memref sig .tc .vmem S512x128 .f32) (harg3 : arg3.IsWhole)
    (x0 : Vec F S512x4096 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__fused_norm_signflip_kernel i arg1 harg1 arg2 harg2 arg3 harg3) K := by
  simp only [cc0__fused_norm_signflip_kernel_eq_skeleton]; unfold cc0__fused_norm_signflip_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Cert.KernelIdeal.Run

end
-- ==== Proof.KIData.lean ====
/-
  The kernel program's run, part one: the proof data of its one pipeline and the body at every grid point.

  Two of the three windows read ONE array (the first argument viewed as [4096, 8192]): the pipeline holds that array
  at two half shares, one per reading window, and the result's array at the full share.  An input block is found
  as fetched at every point; the output block is left at the value the body computes from the two input blocks.
-/
import proofs.«111559_j61589831024942_2_alg».proof.Proof.Gen.KernelIdeal.Launch
import proofs.«111559_j61589831024942_2_alg».proof.Proof.Gen.KernelIdeal.Skeleton
import proofs.«111559_j61589831024942_2_alg».proof.Proof.Gen.KernelIdeal.Points
import proofs.«111559_j61589831024942_2_alg».proof.Proof.KIBody
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core c: the arrays as the region finds them; after the body at point t each input's buffer at
    its block and the output's at `out2` of the two; the invariant only the scoped buffers no window stages (there are
    none); nothing owed; the shared array at a half share per reading window, the result's array whole. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => out2 (iblk m ρ c 0 t) (iblk m ρ c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = out2 (iblk m ρ c 0 t) (iblk m ρ c 1 t) := by dsimp only [dats]

/-- An input window's current staging buffer holds its block at every point. -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

/-- What the body is called with at point t, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t))

/-- The body at any point: the inputs' buffers hold their blocks, so the body's triple applies; the invariant and the
    core's tallies pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1]
  rw [show (dats m ρ 0 c).Φ t.succ = (dats m ρ 0 c).Φ t.castSucc from rfl,
    show (dats m ρ 0 c).owesAt () t.succ = (dats m ρ 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m ρ c 0 t) (iblk m ρ c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every grid point: the three windows' buffers taken one by one. -/
theorem body_obligation (c : Dev nD) : BodyObligation (dats (F := F) m ρ 0 c) (defs₀ (F := F)) Variants.none () Set.univ := fun t => by
  rw [bigSep_W0, bigSep_W0]
  exact sound_body m ρ c t

end Cert.KernelIdeal.Run

end
-- ==== Proof.KIRun.lean ====
/-
  The kernel program's run, part two: the launch.

  @main is one reshape, the kernel region, and thirty-two operations on the region's result and the second argument.
  The reshaped argument is read by the region through two windows: at the region's entry its buffer, held whole, is
  dealt to the two windows at a half each, and at the exit the two halves, still at the contents they were dealt at
  (an input is never written), are the whole buffer again.  The result's array goes in whole and comes out at what
  the eight write-backs made of it.  Every other buffer bypasses the region.
-/
import proofs.«111559_j61589831024942_2_alg».proof.Proof.Gen.KernelIdeal.Launch
import proofs.«111559_j61589831024942_2_alg».proof.Proof.Gen.KernelIdeal.Skeleton
import proofs.«111559_j61589831024942_2_alg».proof.Proof.Gen.KernelIdeal.Points
import proofs.«111559_j61589831024942_2_alg».proof.Proof.KIData
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array read through two windows -/

/-- The buffers behind the three windows' arrays: the reshaped argument (twice) and the result. -/
theorem image_arr : Finset.univ.image (Pipeline.arrRef spec0) = {main_v0, main_v1} := by decide

theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare := rfl

/-- The pipeline's arrays, window by window: the shared array at its two halves, the result's array whole. -/
theorem arrays_eq3 (c : Dev nD) (X : (w : Fin cfg0.W) → Buf (Elt F) ((cfg0.win w).arr.view.loc (c : Thread nD τ))) :
    (dats m ρ 0 c).arrays X = iprop((((c : Thread nD τ).loc main_v0) ↦{fullShare.left} X 0)
      ∗ (((c : Thread nD τ).loc main_v0) ↦{fullShare.right} X 1) ∗ (((c : Thread nD τ).loc main_v1) ↦{fullShare} X 2)) := by
  unfold Dat.arrays
  rw [bigSep_W0, share0, share1, share2]
  have e0 : (cfg0.win 0).arr.view.set = Finset.univ := (arr_whole0 0).set_eq_univ
  have e2 : (cfg0.win 2).arr.view.set = Finset.univ := (arr_whole0 2).set_eq_univ
  rw [e0, e2]

/-- The two distinct buffers behind the arrays, each whole. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  unfold Pipeline.arrBufs
  rw [image_arr, bigSep_insert (by decide), bigSep_singleton]
  rfl

/-- The array two windows read, held whole, is held by each window at a half; the result's array whole. -/
theorem arrays_of_bufs (c : Dev nD) (W : (b : Ref sig .tc) → Buf (Elt F) ((c : Thread nD τ).loc b))
    (X : (w : Fin cfg0.W) → Buf (Elt F) ((cfg0.win w).arr.view.loc (c : Thread nD τ)))
    (h0 : X 0 = W main_v0) (h1 : X 1 = W main_v0) (h2 : X 2 = W main_v1) :
    (Pipeline.arrBufs (Ix := Unit) (Name := ℕ) (U := UR sig nD τ) (Lvl := ℕ) spec0 c W : sProp 𝕄) ⊢ (dats m ρ 0 c).arrays X := by
  rw [arrBufs_eq, arrays_eq3, h0, h1, h2]
  refine (sep_mono (pointsTo_share (PosShare.mem_left_op_right fullShare)).1 .rfl).trans ?_
  iintro ⟨⟨Hl, Hr⟩, H1⟩
  isplitl [Hl]; · iexact Hl
  isplitl [Hr]; · iexact Hr
  iexact H1

/-- And back: two halves at the same contents are the whole. -/
theorem bufs_of_arrays (c : Dev nD) (W : (b : Ref sig .tc) → Buf (Elt F) ((c : Thread nD τ).loc b))
    (X : (w : Fin cfg0.W) → Buf (Elt F) ((cfg0.win w).arr.view.loc (c : Thread nD τ)))
    (h0 : X 0 = W main_v0) (h1 : X 1 = W main_v0) (h2 : X 2 = W main_v1) :
    (dats m ρ 0 c).arrays X ⊢ (Pipeline.arrBufs (Ix := Unit) (Name := ℕ) (U := UR sig nD τ) (Lvl := ℕ) spec0 c W : sProp 𝕄) := by
  rw [arrBufs_eq, arrays_eq3, h0, h1, h2]
  refine BIBase.Entails.trans ?_ (sep_mono (pointsTo_share (PosShare.mem_left_op_right fullShare)).2 .rfl)
  iintro ⟨Hl, Hr, H1⟩
  isplitl [Hl Hr]
  · isplitl [Hl]; · iexact Hl
    iexact Hr
  iexact H1

/-! ## The state after the region -/

open Classical in
/-- A core's buffers when the region is left: the result's array at what the write-backs made of it, every other
    buffer as the region found it. -/
def W1 (c : Dev nD) : Valuation τ sig (Elt F) := fun b =>
  if h : Proc.devRef .tc main_v1 = b then
    cast (congrArg (fun b' : DevRef τ sig => b'.ty.Contents (Elt F)) h) ((dats m ρ 0 c).arrAt 2 cfg0.N)
  else StableHlo.after hostOps0 (V₀ m ρ c) b

theorem W1_result (c : Dev nD) : W1 m ρ c (Proc.devRef .tc main_v1) = (dats m ρ 0 c).arrAt 2 cfg0.N := by
  unfold W1; rw [dif_pos rfl]; rfl

theorem W1_other (c : Dev nD) (b : Ref sig .tc) (hb : main_v1 ≠ b) :
    W1 m ρ c (Proc.devRef .tc b) = StableHlo.after hostOps0 (V₀ m ρ c) (Proc.devRef .tc b) := by
  unfold W1; rw [dif_neg fun e => hb (Proc.devRef_injective _ e)]

/-- and at the end: the thirty-two operations after the region have run. -/
abbrev Wend (c : Dev nD) : Valuation τ sig (Elt F) := StableHlo.after hostOps1 (W1 m ρ c)

/-! ## The launch: @main as a host stretch, the region, a host stretch -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core's tallies. -/
abbrev R (c : Dev nD) : sProp 𝕄 := iprop(∃ W, owes (c : Thread nD τ) (0 : CellTallies nD τ sig Unit) W)

/-- The reshape before the region, over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The operations after the region, from the state the region leaves. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m ρ) R

/-- The valuation the region is entered at, as the pipeline's lemmas take it: over the core's references. -/
abbrev W1r (c : Dev nD) (b : Ref sig .tc) : Buf (Elt F) ((c : Thread nD τ).loc b) := W1 m ρ c b

/-- Off the result's array the state after the region is the state before it. -/
theorem rest_eq (c : Dev nD) :
    (Pipeline.unscopedRest (Ix := Unit) (Name := ℕ) (U := UR sig nD τ) (Lvl := ℕ) spec0 c (W1r m ρ c) : sProp 𝕄)
      = Pipeline.unscopedRest spec0 c (V m ρ c) := by
  unfold Pipeline.unscopedRest
  refine bigSep_congr fun b hb => ?_
  have hne : main_v1 ≠ b := fun e => (Finset.mem_sdiff.mp hb).2 (e ▸ Finset.mem_image.mpr ⟨2, Finset.mem_univ _, rfl⟩)
  rw [show W1r m ρ c b = V m ρ c b from W1_other m ρ c b hne]

set_option backward.isDefEq.respectTransparency.types false in
/-- THE REGION: entered from what the reshape left — the two arrays into the pipeline, the shared one split between its
    two readers, every other buffer bypassing —, left with the result's array at its final contents and the shared
    array whole again. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (W1 m ρ c) ∗ R c)
  X c := iprop(emp)
  Y c := iprop(emp)
  Z c := Pipeline.unscopedRest spec0 c (V m ρ c)
  hentry c := by
    rw [show StableHlo.held (c : Thread nD τ) (Pipeline.ucRefs τ sig) (StableHlo.after hostOps0 (V₀ m ρ c)) = unscopedBufs c (V m ρ c)
        from (Pipeline.unscopedBufs_held c _).symm,
      Pipeline.unscopedBufs_split₀ (Pipeline.pin (pcfgs (F := F)) adm) 0 winFacts₀0.arr_unscoped c (V m ρ c)]
    have hs := arrays_of_bufs m ρ c (V m ρ c) ((dats m ρ 0 c).arrAt · 0) rfl rfl rfl
    iintro ⟨⟨⟨Ha, Hrest⟩, HO⟩, -, -⟩
    ihave Harr := hs $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [Pipeline.ownSems0_none, show (dats m ρ 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (W1 m ρ c) = unscopedBufs c (W1r m ρ c)
        from (Pipeline.unscopedBufs_held c _).symm,
      Pipeline.unscopedBufs_split₀ (Pipeline.pin (pcfgs (F := F)) adm) 0 winFacts₀0.arr_unscoped c (W1r m ρ c), rest_eq]
    have hs := bufs_of_arrays m ρ c (W1r m ρ c) ((dats m ρ 0 c).arrAt · cfg0.N)
      (((dats m ρ 0 c).arrAt_in 0 rfl _).trans (W1_other m ρ c main_v0 (by decide)).symm)
      (((dats m ρ 0 c).arrAt_in 1 rfl _).trans (W1_other m ρ c main_v0 (by decide)).symm)
      (W1_result m ρ c).symm
    iintro ⟨Ha, HO, -, HZ⟩
    ihave Hb := hs $$ Ha
    imodintro
    isplitr [HO]
    · isplitl [Hb]; · iexact Hb
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) :=
  [.host (seg0 m ρ), .region (reg0 m ρ), .host (seg1 m ρ)]

/-- The only ghost state in play is that of the pipeline's staging cells. -/
abbrev EP : Emb (UR sig nD τ) (MT nD τ sig Unit (Elt F) ℕ (UR sig nD τ) ℕ) := emb₁

set_option backward.isDefEq.respectTransparency.types false in
/-- At the compiled mesh, for any float values, from any memory with zero counters: every weakly fair execution of @main
    terminates, nothing faulting, and every unscoped buffer ends at the operations' value `Wend`. -/
theorem run_main : θ_run defs (onTc (τ := τ) (main (F := F))) (s₀ m ρ)
    (fun r => ∀ c : Dev nD, ∀ b ∈ Pipeline.ucRefs τ sig, r.2.mem (((c : Thread nD τ)).1, b) = Wend m ρ c b) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Wend m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c)
        from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = Wend m ρ c b)
    (hfin := fun c s' => by
      iintro ⟨Hh, HSI⟩
      unfold StableHlo.held
      imodintro
      iapply (pointsTo_read_all (Pipeline.ucRefs τ sig) (fun b => (((c : Thread nD τ)).1, b)) (Wend m ρ c) s')
      isplitl [Hh] <;> iassumption)
    (hQ := fun _ h => h)

end Cert.KernelIdeal.Run

end
-- ==== Proof.KIFrame.lean ====
/-
  The kernel program's run, part three: the argument arrays at the end.

  Neither the reshape, nor the region (which reads the reshaped copy and writes only the result's array), nor any of the
  thirty-two operations after it writes an argument array: each ends as launched.
-/
import proofs.«111559_j61589831024942_2_alg».proof.Proof.Gen.KernelIdeal.Launch
import proofs.«111559_j61589831024942_2_alg».proof.Proof.Gen.KernelIdeal.Skeleton
import proofs.«111559_j61589831024942_2_alg».proof.Proof.Gen.KernelIdeal.Points
import proofs.«111559_j61589831024942_2_alg».proof.Proof.KIRun
import Idealize.ShloMosaic.Lib.StableHlo.Run
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open Idealize.ShloMosaic.StableHlo

/-- An unscoped reference of the core is among the buffers the run accounts for. -/
theorem mem_uc (b : Ref sig .tc) (hb : (Proc.devRef (τ := τ) .tc b).isScoped = false) :
    Proc.devRef (τ := τ) .tc b ∈ Pipeline.ucRefs τ sig :=
  Finset.mem_filter.mpr ⟨StableHlo.devRef_mem_tcRefs b, by rw [hb]; exact Bool.false_ne_true⟩

/-- The first argument at the end is the first argument at launch. -/
theorem Wend_arg0 (c : Dev nD) : Wend m ρ c (Proc.devRef .tc main_arg0) = m ((c : Thread nD τ).loc main_arg0) := by
  show StableHlo.after hostOps1 (W1 m ρ c) (Proc.devRef .tc main_arg0) = _
  after_results_simp
  rw [W1_other m ρ c main_arg0 (by decide)]
  after_results

/-- The second argument at the end is the second argument at launch. -/
theorem Wend_arg1 (c : Dev nD) : Wend m ρ c (Proc.devRef .tc main_arg1) = m ((c : Thread nD τ).loc main_arg1) := by
  show StableHlo.after hostOps1 (W1 m ρ c) (Proc.devRef .tc main_arg1) = _
  after_results_simp
  rw [W1_other m ρ c main_arg1 (by decide)]
  after_results

/-- THE FRAME: every weakly fair execution of @main terminates, nothing faulting, with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 rfl)).trans (Wend_arg0 m ρ c), (h c _ (mem_uc main_arg1 rfl)).trans (Wend_arg1 m ρ c)⟩)
    (run_main m ρ)

end Cert.KernelIdeal.Run

end
-- ==== Proof.Spec.lean ====
/-
  What both programs compute, as one function of the two argument arrays.

  For a row b of the first argument P (4096 rows, two channels, 4096 columns) write x0(k) = P(b,0,k) + ε and
  x1(k) = P(b,1,k) + ε.  The row's length is L(b) = max(√(Σ_k x1(k)²), δ).  Column k of the row is FLIPPED when
  x1(k) / L(b) < 1/2: its value is then -x0(k), and x0(k) otherwise.  Only columns 0..5 of that array and of
  channel 0 of the second argument T are read afterwards: columns 0..2 scaled by 100 and columns 3..5 scaled by
  1000, the two mean squared differences (over 4096 · 3 entries each) added.
-/
import Idealize.ShloMosaic.PureOps
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The argument arrays' shape, the flipped array restricted to its first 128 columns, three columns of it, a scalar. -/
abbrev SIn : Shape := ⟨3, ![4096, 2, 4096]⟩
abbrev SHead : Shape := ⟨2, ![4096, 128]⟩
abbrev SCols : Shape := ⟨2, ![4096, 3]⟩
abbrev SOne : Shape := ⟨0, ![]⟩

/-- ε, the offset added to every entry of the first argument; δ, the floor of a row's length; and 1/2. -/
def eps : EReal := Ideal.ofBits .f32 0x3089705F#32
def lenFloor : EReal := Ideal.ofBits .f32 0x2B8CBCCC#32
def half : EReal := Ideal.ofBits .f32 0x3F000000#32

/-- Entry (b, ch, k) of the first argument, offset by ε. -/
def shifted (P : SIn.Idx → EReal) (b : Fin 4096) (ch : Fin 2) (k : Fin 4096) : EReal := P (ix3 b ch k) + eps

/-- The sum of the squares of row b of channel 1. -/
def sumsq (P : SIn.Idx → EReal) (b : Fin 4096) : EReal := ∑ k : Fin 4096, shifted P b 1 k * shifted P b 1 k

/-- The row's length, floored at δ. -/
def len (P : SIn.Idx → EReal) (b : Fin 4096) : EReal := max (Ideal.sqrt (sumsq P b)) lenFloor

/-- Column k of row b of channel 0, its sign flipped where channel 1's normalized entry is below 1/2. -/
def flipped (P : SIn.Idx → EReal) (b : Fin 4096) (k : Fin 4096) : EReal :=
  Scalar.select (Ideal.cmp .olt (Ideal.div (shifted P b 1 k) (len P b)) half) (-(shifted P b 0 k)) (shifted P b 0 k)

/-- The flipped array's first 128 columns. -/
def head (P : SIn.Idx → EReal) : SHead.Idx → EReal := fun i =>
  flipped P ⟨(i 0).val, (i 0).isLt⟩ ⟨(i 1).val, lt_trans (i 1).isLt (by decide)⟩

/-- Columns 0..2 and columns 3..5 of the flipped array. -/
def flippedLo (P : SIn.Idx → EReal) : SCols.Idx → EReal := fun i =>
  flipped P ⟨(i 0).val, (i 0).isLt⟩ ⟨(i 1).val, lt_trans (i 1).isLt (by decide)⟩
def flippedHi (P : SIn.Idx → EReal) : SCols.Idx → EReal := fun i =>
  flipped P ⟨(i 0).val, (i 0).isLt⟩ ⟨(i 1).val + 3, Nat.lt_of_lt_of_le (Nat.add_lt_add_right (i 1).isLt 3) (by decide)⟩

/-- Columns 0..2 and columns 3..5 of channel 0 of the second argument. -/
def targetLo (T : SIn.Idx → EReal) : SCols.Idx → EReal := fun i =>
  T (ix3 (⟨(i 0).val, (i 0).isLt⟩ : Fin 4096) (0 : Fin 2) (⟨(i 1).val, lt_trans (i 1).isLt (by decide)⟩ : Fin 4096))
def targetHi (T : SIn.Idx → EReal) : SCols.Idx → EReal := fun i =>
  T (ix3 (⟨(i 0).val, (i 0).isLt⟩ : Fin 4096) (0 : Fin 2)
    (⟨(i 1).val + 3, Nat.lt_of_lt_of_le (Nat.add_lt_add_right (i 1).isLt 3) (by decide)⟩ : Fin 4096))

/-- The two scaled mean squared differences, added: (1/12288) Σ (100·A - 100·C)² + (1/12288) Σ (1000·B - 1000·D)², each
    sum over the 4096 · 3 entries, written with the host's operations so that either program's last lines are this term. -/
def scaledMse (hr : SCols.ReducesTo [0, 1] SOne) (h0 : 0 < SOne.numel)
    (hb : SOne.BroadcastsInDim SCols (![] : Fin 0 → Fin SCols.rank))
    (A B C D : FVec Ideal SCols .f32) : FVec Ideal SOne .f32 :=
  addf
    (Host.divf
      (Host.reduceAdd
        (mulf
          (subf (mulf A (broadcastInDim SCols ![] hb (constant (F := Ideal) SOne .f32 0x42C80000#32)))
            (mulf C (broadcastInDim SCols ![] hb (constant (F := Ideal) SOne .f32 0x42C80000#32))))
          (subf (mulf A (broadcastInDim SCols ![] hb (constant (F := Ideal) SOne .f32 0x42C80000#32)))
            (mulf C (broadcastInDim SCols ![] hb (constant (F := Ideal) SOne .f32 0x42C80000#32)))))
        (constant (F := Ideal) SOne .f32 0x00000000#32) hr h0)
      (constant (F := Ideal) SOne .f32 0x46400000#32))
    (Host.divf
      (Host.reduceAdd
        (mulf
          (subf (mulf B (broadcastInDim SCols ![] hb (constant (F := Ideal) SOne .f32 0x447A0000#32)))
            (mulf D (broadcastInDim SCols ![] hb (constant (F := Ideal) SOne .f32 0x447A0000#32))))
          (subf (mulf B (broadcastInDim SCols ![] hb (constant (F := Ideal) SOne .f32 0x447A0000#32)))
            (mulf D (broadcastInDim SCols ![] hb (constant (F := Ideal) SOne .f32 0x447A0000#32)))))
        (constant (F := Ideal) SOne .f32 0x00000000#32) hr h0)
      (constant (F := Ideal) SOne .f32 0x46400000#32))

/-- The result, as a function of the two argument arrays. -/
def result (hr : SCols.ReducesTo [0, 1] SOne) (h0 : 0 < SOne.numel)
    (hb : SOne.BroadcastsInDim SCols (![] : Fin 0 → Fin SCols.rank))
    (P T : SIn.Idx → EReal) : FVec Ideal SOne .f32 :=
  scaledMse hr h0 hb (flippedLo P) (flippedHi P) (targetLo T) (targetHi T)

end Cert.Spec

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.KIPayload.lean ====
/-
  The kernel body's output block, entry by entry.

  The body is handed a [512, 4096] block W (rows of channel 1) and a [512, 128] block N (the same rows of the first 128
  columns of channel 0).  It offsets both by ε, takes for each row p the length L(p) = max(√(Σ_k (W(p,k) + ε)²), δ) — the
  lane sum over the row, kept as a column and repeated along the 128 columns —, and writes at (p, q) the value
  0 - (N(p,q) + ε) where (W(p,q) + ε) / L(p) < 1/2 and N(p,q) + ε otherwise.  The zero word is the real 0, so 0 - y is -y.
-/
import proofs.«111559_j61589831024942_2_alg».proof.Proof.KIBody
import proofs.«111559_j61589831024942_2_alg».proof.Proof.Spec
import proofs.«111559_j61589831024942_2_alg».proof.Proof.LibKeepdims
import proofs.«111559_j61589831024942_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Cert.KernelIdeal.Run Idealize.ShloMosaic Idealize.ShloMosaic.ValueIdx

/-- The wide block offset by ε. -/
abbrev wide (x0 : Vec Ideal S512x4096 .f32) : FVec Ideal S512x4096 .f32 :=
  addf (shapeCast S512x4096 x0 shapeCasts_S512x4096_S512x4096)
    (broadcast S512x4096 (Scalar.ofBits (F := Ideal) .f32 0x3089705F#32))

/-- The narrow block offset by ε. -/
abbrev narrow (x1 : Vec Ideal S512x128 .f32) : FVec Ideal S512x128 .f32 :=
  addf (shapeCast S512x128 x1 shapeCasts_S512x128_S512x128)
    (broadcast S512x128 (Scalar.ofBits (F := Ideal) .f32 0x3089705F#32))

/-- The rows' lengths as a column: the square root of the lane sum of the offset wide block's squares, floored at δ. -/
abbrev lenCol (x0 : Vec Ideal S512x4096 .f32) : FVec Ideal S512x1 .f32 :=
  maximumf
    (sqrt (shapeCast S512x1
      (multiReduction .add [1] S512 (mulf (wide x0) (wide x0)) 0x00000000#32 reduces_S512x4096_S512 (.inl rfl) rfl)
      shapeCasts_S512_S512x1))
    (broadcast S512x1 (Scalar.ofBits (F := Ideal) .f32 0x2B8CBCCC#32))

/-- The body's value is the select, on "the normalized wide entry is below 1/2", between 0 minus the offset narrow block
    and the offset narrow block. -/
theorem pay_eq (x0 : Vec Ideal S512x4096 .f32) (x1 : Vec Ideal S512x128 .f32) :
    k0_pay1 (F := Ideal) x0 x1
      = select
          (cmpf .olt
            (divf (extractStridedSlice S512x128 ![0, 0] (wide x0) slices_S512x4096_o0_0_S512x128)
              (broadcastTo S512x128 (lenCol x0) broadcasts_S512x1_S512x128))
            (broadcast S512x128 (Scalar.ofBits (F := Ideal) .f32 0x3F000000#32)))
          (subf (broadcast S512x128 (Scalar.ofBits (F := Ideal) .f32 0x00000000#32)) (narrow x1))
          (narrow x1) := rfl

/-- Entry (p, k) of the offset wide block: a cast to the same shape changes nothing. -/
theorem wide_apply (x0 : Vec Ideal S512x4096 .f32) (p : Fin 512) (k : Fin 4096) :
    wide x0 (ix2 p k) = x0 (ix2 p k) + Cert.Spec.eps := by
  show shapeCast S512x4096 x0 shapeCasts_S512x4096_S512x4096 (ix2 p k) + Ideal.ofBits .f32 0x3089705F#32 = _
  rw [shapeCast_self]
  rfl

/-- Entry (p, q) of the offset narrow block. -/
theorem narrow_apply (x1 : Vec Ideal S512x128 .f32) (p : Fin 512) (q : Fin 128) :
    narrow x1 (ix2 p q) = x1 (ix2 p q) + Cert.Spec.eps := by
  show shapeCast S512x128 x1 shapeCasts_S512x128_S512x128 (ix2 p q) + Ideal.ofBits .f32 0x3089705F#32 = _
  rw [shapeCast_self]
  rfl

/-- Columns 0..127 of a [512, 4096] array: entry (p, q) is the array's entry (p, q). -/
theorem slice_apply (v : FVec Ideal S512x4096 .f32) (p : Fin 512) (q : Fin 128) :
    extractStridedSlice S512x128 ![0, 0] v slices_S512x4096_o0_0_S512x128 (ix2 p q)
      = v (ix2 p (⟨q.val, lt_trans q.isLt (by decide)⟩ : Fin 4096)) :=
  extractStridedSlice_apply ![0, 0] v slices_S512x4096_o0_0_S512x128 (ix2 p q)
    (ix2 p (⟨q.val, lt_trans q.isLt (by decide)⟩ : Fin 4096)) (fun a => by
      match a with
      | ⟨0, _⟩ => show p.val = 0 + p.val; omega
      | ⟨1, _⟩ => show q.val = 0 + q.val; omega)

/-- The length column repeated along the 128 columns: at (p, q) it is row p's length. -/
theorem lenCol_apply (x0 : Vec Ideal S512x4096 .f32) (p : Fin 512) (q : Fin 128) :
    broadcastTo S512x128 (lenCol x0) broadcasts_S512x1_S512x128 (ix2 p q)
      = max (Ideal.sqrt (∑ k : Fin 4096, wide x0 (ix2 p k) * wide x0 (ix2 p k))) Cert.Spec.lenFloor := by
  refine (Cert.Keepdims.column_repeat_apply (lenCol x0) broadcasts_S512x1_S512x128 p q).trans ?_
  exact congrArg (fun s : EReal => max (Ideal.sqrt s) Cert.Spec.lenFloor)
    ((Cert.Keepdims.column_cast_apply _ shapeCasts_S512_S512x1 p).trans
      (Cert.RowOps.sum_over_columns_apply (mulf (wide x0) (wide x0)) reduces_S512x4096_S512 (.inl rfl) rfl p))

/-- The output block after the body, at (p, q). -/
theorem out2_apply (x0 : Vec Ideal S512x4096 .f32) (x1 : Vec Ideal S512x128 .f32) (p : Fin 512) (q : Fin 128) :
    out2 (F := Ideal) x0 x1 (ix2 p q)
      = Scalar.select (Ideal.cmp .olt (Ideal.div (x0 (ix2 p (⟨q.val, lt_trans q.isLt (by decide)⟩ : Fin 4096)) + Cert.Spec.eps)
            (max (Ideal.sqrt (∑ k : Fin 4096, (x0 (ix2 p k) + Cert.Spec.eps) * (x0 (ix2 p k) + Cert.Spec.eps))) Cert.Spec.lenFloor)) Cert.Spec.half)
          (-(x1 (ix2 p q) + Cert.Spec.eps)) (x1 (ix2 p q) + Cert.Spec.eps) := by
  have hz : (![0, 0] : Fin 2 → Nat) = fun _ => 0 := by
    funext a
    match a with
    | ⟨0, _⟩ => rfl
    | ⟨1, _⟩ => rfl
  unfold out2
  rw [View.canon_unit_zero hz]
  simp only [View.ld_unit_zero (S := S512x4096) hz, View.ld_unit_zero (S := S512x128) hz]
  rw [pay_eq]
  show Scalar.select
      (Ideal.cmp .olt
        (Ideal.div (extractStridedSlice S512x128 ![0, 0] (wide x0) slices_S512x4096_o0_0_S512x128 (ix2 p q))
          (broadcastTo S512x128 (lenCol x0) broadcasts_S512x1_S512x128 (ix2 p q)))
        (Ideal.ofBits .f32 0x3F000000#32))
      (Ideal.ofBits .f32 0x00000000#32 - narrow x1 (ix2 p q)) (narrow x1 (ix2 p q)) = _
  rw [slice_apply, lenCol_apply, narrow_apply, wide_apply, Ideal.ofBits_zero_f32, zero_sub]
  simp only [wide_apply]
  rfl

end Cert.KernelIdeal.Payload

end
-- ==== Proof.KITail.lean ====
/-
  The kernel program's last slices, taken of the specification's arrays.

  After the region the program keeps columns 0..5 of the [4096, 128] result array and splits them into columns 0..2 and
  3..5; of the second argument it keeps channel 0's columns 0..5 — a [4096, 1, 6] slice whose row-major position b · 6 + j
  is its entry (b, 0, j), viewed as [4096, 6] — and splits them the same way.  Taken of the flipped array's first 128
  columns and of the second argument, these are the four column arrays of the specification: a slice read at an entry
  is the operand at the entry moved by the offsets, and column 3 + j is column j + 3.
-/
import proofs.«111559_j61589831024942_2_alg».proof.Proof.Gen.KernelIdeal
import proofs.«111559_j61589831024942_2_alg».proof.Proof.Spec
import Idealize.ShloMosaic.Lib.Pipeline.Value
import Idealize.ShloMosaic.Lib.ValueIdx
import Idealize.ShloMosaic.Lib.ValueLayout

noncomputable section

namespace Cert.KernelIdeal.Tail

open Cert.KernelIdeal Cert.KernelIdeal.Gen Idealize.ShloMosaic Idealize.ShloMosaic.ValueIdx

/-- Columns 0..2 of columns 0..5 of the flipped array's first 128 columns are the flipped array's columns 0..2. -/
theorem lo_of_head (P : Cert.Spec.SIn.Idx → EReal) :
    extractStridedSlice S4096x3 ![0, 0]
        (extractStridedSlice S4096x6 ![0, 0] (Cert.Spec.head P : FVec Ideal S4096x128 .f32) slices_S4096x128_S4096x6_0_0)
        slices_S4096x6_S4096x3_0_0
      = Cert.Spec.flippedLo P := by
  funext i
  have h0 : (i 0).val < 4096 := (i 0).isLt
  have h1 : (i 1).val < 3 := (i 1).isLt
  refine (extractStridedSlice_apply ![0, 0] _ slices_S4096x6_S4096x3_0_0 i
    (ix2 (⟨(i 0).val, h0⟩ : Fin 4096) (⟨(i 1).val, by omega⟩ : Fin 6)) (fun a => by
      match a with
      | ⟨0, _⟩ => exact (Nat.zero_add _).symm
      | ⟨1, _⟩ => exact (Nat.zero_add _).symm)).trans ?_
  refine (extractStridedSlice_apply ![0, 0] _ slices_S4096x128_S4096x6_0_0
    (ix2 (⟨(i 0).val, h0⟩ : Fin 4096) (⟨(i 1).val, by omega⟩ : Fin 6))
    (ix2 (⟨(i 0).val, h0⟩ : Fin 4096) (⟨(i 1).val, by omega⟩ : Fin 128)) (fun a => by
      match a with
      | ⟨0, _⟩ => exact (Nat.zero_add _).symm
      | ⟨1, _⟩ => exact (Nat.zero_add _).symm)).trans ?_
  rfl

/-- Columns 3..5 of columns 0..5 of the flipped array's first 128 columns are the flipped array's columns 3..5. -/
theorem hi_of_head (P : Cert.Spec.SIn.Idx → EReal) :
    extractStridedSlice S4096x3 ![0, 3]
        (extractStridedSlice S4096x6 ![0, 0] (Cert.Spec.head P : FVec Ideal S4096x128 .f32) slices_S4096x128_S4096x6_0_0)
        slices_S4096x6_S4096x3_0_3
      = Cert.Spec.flippedHi P := by
  funext i
  have h0 : (i 0).val < 4096 := (i 0).isLt
  have h1 : (i 1).val < 3 := (i 1).isLt
  refine (extractStridedSlice_apply ![0, 3] _ slices_S4096x6_S4096x3_0_3 i
    (ix2 (⟨(i 0).val, h0⟩ : Fin 4096) (⟨(i 1).val + 3, by omega⟩ : Fin 6)) (fun a => by
      match a with
      | ⟨0, _⟩ => exact (Nat.zero_add _).symm
      | ⟨1, _⟩ => exact Nat.add_comm (i 1).val 3)).trans ?_
  refine (extractStridedSlice_apply ![0, 0] _ slices_S4096x128_S4096x6_0_0
    (ix2 (⟨(i 0).val, h0⟩ : Fin 4096) (⟨(i 1).val + 3, by omega⟩ : Fin 6))
    (ix2 (⟨(i 0).val, h0⟩ : Fin 4096) (⟨(i 1).val + 3, by omega⟩ : Fin 128)) (fun a => by
      match a with
      | ⟨0, _⟩ => exact (Nat.zero_add _).symm
      | ⟨1, _⟩ => exact (Nat.zero_add _).symm)).trans ?_
  rfl

/-- Columns 0..2 of channel 0's columns 0..5 of the second argument are the specification's target columns 0..2. -/
theorem lo_of_target (T : Cert.Spec.SIn.Idx → EReal) :
    extractStridedSlice S4096x3 ![0, 0]
        (shapeCast S4096x6 (extractStridedSlice S4096x1x6 ![0, 0, 0] T slices_S4096x2x4096_S4096x1x6_0_0_0)
          shapeCasts_S4096x1x6_S4096x6)
        slices_S4096x6_S4096x3_0_0
      = Cert.Spec.targetLo T := by
  funext i
  have h0 : (i 0).val < 4096 := (i 0).isLt
  have h1 : (i 1).val < 3 := (i 1).isLt
  refine (extractStridedSlice_apply ![0, 0] _ slices_S4096x6_S4096x3_0_0 i
    (ix2 (⟨(i 0).val, h0⟩ : Fin 4096) (⟨(i 1).val, by omega⟩ : Fin 6)) (fun a => by
      match a with
      | ⟨0, _⟩ => exact (Nat.zero_add _).symm
      | ⟨1, _⟩ => exact (Nat.zero_add _).symm)).trans ?_
  refine (shapeCast_apply _ shapeCasts_S4096x1x6_S4096x6
    (ix2 (⟨(i 0).val, h0⟩ : Fin 4096) (⟨(i 1).val, by omega⟩ : Fin 6))
    (ix3 (⟨(i 0).val, h0⟩ : Fin 4096) (0 : Fin 1) (⟨(i 1).val, by omega⟩ : Fin 6)) (by
      rw [Shape.rowMajor_val_three, Shape.rowMajor_val_two]
      show ((i 0).val * 1 + 0) * 6 + (i 1).val = (i 0).val * 6 + (i 1).val
      omega)).trans ?_
  refine (extractStridedSlice_apply ![0, 0, 0] T slices_S4096x2x4096_S4096x1x6_0_0_0
    (ix3 (⟨(i 0).val, h0⟩ : Fin 4096) (0 : Fin 1) (⟨(i 1).val, by omega⟩ : Fin 6))
    (ix3 (⟨(i 0).val, h0⟩ : Fin 4096) (0 : Fin 2) (⟨(i 1).val, by omega⟩ : Fin 4096)) (fun a => by
      match a with
      | ⟨0, _⟩ => exact (Nat.zero_add _).symm
      | ⟨1, _⟩ => rfl
      | ⟨2, _⟩ => exact (Nat.zero_add _).symm)).trans ?_
  rfl

/-- Columns 3..5 of channel 0's columns 0..5 of the second argument are the specification's target columns 3..5. -/
theorem hi_of_target (T : Cert.Spec.SIn.Idx → EReal) :
    extractStridedSlice S4096x3 ![0, 3]
        (shapeCast S4096x6 (extractStridedSlice S4096x1x6 ![0, 0, 0] T slices_S4096x2x4096_S4096x1x6_0_0_0)
          shapeCasts_S4096x1x6_S4096x6)
        slices_S4096x6_S4096x3_0_3
      = Cert.Spec.targetHi T := by
  funext i
  have h0 : (i 0).val < 4096 := (i 0).isLt
  have h1 : (i 1).val < 3 := (i 1).isLt
  refine (extractStridedSlice_apply ![0, 3] _ slices_S4096x6_S4096x3_0_3 i
    (ix2 (⟨(i 0).val, h0⟩ : Fin 4096) (⟨(i 1).val + 3, by omega⟩ : Fin 6)) (fun a => by
      match a with
      | ⟨0, _⟩ => exact (Nat.zero_add _).symm
      | ⟨1, _⟩ => exact Nat.add_comm (i 1).val 3)).trans ?_
  refine (shapeCast_apply _ shapeCasts_S4096x1x6_S4096x6
    (ix2 (⟨(i 0).val, h0⟩ : Fin 4096) (⟨(i 1).val + 3, by omega⟩ : Fin 6))
    (ix3 (⟨(i 0).val, h0⟩ : Fin 4096) (0 : Fin 1) (⟨(i 1).val + 3, by omega⟩ : Fin 6)) (by
      rw [Shape.rowMajor_val_three, Shape.rowMajor_val_two]
      show ((i 0).val * 1 + 0) * 6 + ((i 1).val + 3) = (i 0).val * 6 + ((i 1).val + 3)
      omega)).trans ?_
  refine (extractStridedSlice_apply ![0, 0, 0] T slices_S4096x2x4096_S4096x1x6_0_0_0
    (ix3 (⟨(i 0).val, h0⟩ : Fin 4096) (0 : Fin 1) (⟨(i 1).val + 3, by omega⟩ : Fin 6))
    (ix3 (⟨(i 0).val, h0⟩ : Fin 4096) (0 : Fin 2) (⟨(i 1).val + 3, by omega⟩ : Fin 4096)) (fun a => by
      match a with
      | ⟨0, _⟩ => exact (Nat.zero_add _).symm
      | ⟨1, _⟩ => rfl
      | ⟨2, _⟩ => exact (Nat.zero_add _).symm)).trans ?_
  rfl

end Cert.KernelIdeal.Tail

end
-- ==== Proof.LibMergeLast.lean ====
/-
  A three-axis array [a, b, n] viewed as a two-axis array [a, b · n] by merging its last two axes.

  Entry (r, ch, k) of the first and entry (r, ch · n + k) of the second sit at the same row-major position,
  (r · b + ch) · n + k = r · (b · n) + (ch · n + k), so the merged array reads, at column ch · n + k of row r, the entry
  (r, ch, k).  At the extents [4096, 2, 4096] → [4096, 8192]: columns 0..4095 of a row are its channel 0, and columns
  4096..8191 are its channel 1.
-/
import Idealize.ShloMosaic.Lib.Pipeline.Value
import Idealize.ShloMosaic.Lib.ValueIdx

noncomputable section

namespace Cert.MergeLast

open Idealize.ShloMosaic Idealize.ShloMosaic.ValueIdx

variable {α : Type}

/-- The merged array at (r, j), where j = ch · n + k, is the entry (r, ch, k). -/
theorem merge_last_apply {a b n : ℕ} (x : (⟨3, ![a, b, n]⟩ : Shape).Idx → α)
    (hc : (⟨3, ![a, b, n]⟩ : Shape).ShapeCasts ⟨2, ![a, b * n]⟩) (r : Fin a) (ch : Fin b) (k : Fin n)
    (j : Fin (b * n)) (hj : j.val = ch.val * n + k.val) :
    shapeCast ⟨2, ![a, b * n]⟩ x hc (ix2 r j) = x (ix3 r ch k) :=
  shapeCast_apply x hc (ix2 r j) (ix3 r ch k) (by
    rw [Shape.rowMajor_val_three, Shape.rowMajor_val_two]
    show (r.val * b + ch.val) * n + k.val = r.val * (b * n) + j.val
    rw [hj, Nat.add_mul, Nat.mul_assoc, Nat.add_assoc])

/-- At [4096, 2, 4096] → [4096, 8192]: the merged array at (r, j), where j = ch · 4096 + k, is the entry (r, ch, k). -/
theorem merge_4096x2x4096_apply (x : (⟨3, ![4096, 2, 4096]⟩ : Shape).Idx → α)
    (hc : (⟨3, ![4096, 2, 4096]⟩ : Shape).ShapeCasts ⟨2, ![4096, 8192]⟩) (r : Fin 4096) (ch : Fin 2) (k : Fin 4096)
    (j : Fin 8192) (hj : j.val = ch.val * 4096 + k.val) :
    shapeCast ⟨2, ![4096, 8192]⟩ x hc (ix2 r j) = x (ix3 r ch k) :=
  shapeCast_apply x hc (ix2 r j) (ix3 r ch k) (by
    rw [Shape.rowMajor_val_three, Shape.rowMajor_val_two]
    show (r.val * 2 + ch.val) * 4096 + k.val = r.val * 8192 + j.val
    omega)

/-- Column k of a row of the merged array, k below 4096, is the row's channel-0 entry k. -/
theorem merge_4096x2x4096_channel0 (x : (⟨3, ![4096, 2, 4096]⟩ : Shape).Idx → α)
    (hc : (⟨3, ![4096, 2, 4096]⟩ : Shape).ShapeCasts ⟨2, ![4096, 8192]⟩) (r : Fin 4096) (k : Fin 4096)
    (j : Fin 8192) (hj : j.val = k.val) :
    shapeCast ⟨2, ![4096, 8192]⟩ x hc (ix2 r j) = x (ix3 r (0 : Fin 2) k) :=
  merge_4096x2x4096_apply x hc r 0 k j (by rw [hj]; show k.val = 0 * 4096 + k.val; omega)

/-- Column 4096 + k of a row of the merged array, k below 4096, is the row's channel-1 entry k. -/
theorem merge_4096x2x4096_channel1 (x : (⟨3, ![4096, 2, 4096]⟩ : Shape).Idx → α)
    (hc : (⟨3, ![4096, 2, 4096]⟩ : Shape).ShapeCasts ⟨2, ![4096, 8192]⟩) (r : Fin 4096) (k : Fin 4096)
    (j : Fin 8192) (hj : j.val = 4096 + k.val) :
    shapeCast ⟨2, ![4096, 8192]⟩ x hc (ix2 r j) = x (ix3 r (1 : Fin 2) k) :=
  merge_4096x2x4096_apply x hc r 1 k j (by rw [hj]; show 4096 + k.val = 1 * 4096 + k.val; omega)

end Cert.MergeLast

end
-- ==== Proof.KIValue.lean ====
/-
  What the kernel program computes, on the extended reals.

  The first argument P is viewed as a [4096, 8192] array A: A(r, k) = P(r, 0, k) and A(r, 4096 + k) = P(r, 1, k).  Grid
  point t reads rows 512·t .. 512·t + 511 of A twice: columns 4096 .. 8191 (all of channel 1) and columns 0 .. 127 (the
  head of channel 0).  From those it writes rows 512·t .. 512·t + 511 of the [4096, 128] result: at (p, q) the flipped
  entry of row 512·t + p, column q.  The eight row bands cover the result, so after the region the result array is the
  flipped array's first 128 columns.  The operations after the region then take columns 0..2 and 3..5 of it and of
  channel 0 of the second argument, and form the two scaled mean squared differences.
-/
import proofs.«111559_j61589831024942_2_alg».proof.Proof.KIFrame
import proofs.«111559_j61589831024942_2_alg».proof.Proof.KIPayload
import proofs.«111559_j61589831024942_2_alg».proof.Proof.KITail
import proofs.«111559_j61589831024942_2_alg».proof.Proof.LibMergeLast
import proofs.«111559_j61589831024942_2_alg».proof.Proof.Spec
import Idealize.ShloMosaic.Lib.Pipeline.Value
import Idealize.ShloMosaic.Lib.StableHlo.Run

set_option maxRecDepth 16384

noncomputable section

open scoped BigOperators

namespace Cert.KernelIdeal.Result

open Cert.KernelIdeal Cert.KernelIdeal.Gen Cert.KernelIdeal.Run
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The two argument arrays as launched, as functions of an index (b, ch, k). -/
abbrev P (c : Dev nD) : Cert.Spec.SIn.Idx → EReal := m ((c : Thread nD τ).loc main_arg0)
abbrev T (c : Dev nD) : Cert.Spec.SIn.Idx → EReal := m ((c : Thread nD τ).loc main_arg1)

/-! ## The region's input: the first argument with its last two axes merged -/

theorem V_v0 (c : Dev nD) :
    (V m ρ c main_v0 : S4096x8192.Idx → EReal) = shapeCast S4096x8192 (P m c) shapeCasts_S4096x2x4096_S4096x8192 := by
  show StableHlo.after hostOps0 (V₀ m ρ c) (Proc.devRef .tc main_v0) = _
  after_results
  rfl

/-- The windows' block indices at grid point t: row band t for all three; block column 1 (of width 4096) for the wide
    window, block column 0 (of width 128) for the narrow one and for the result. -/
theorem idx_facts : ∀ t : Fin cfg0.N, win0_0.index t (0 : Fin 2) = t.val ∧ win0_0.index t (1 : Fin 2) = 1
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (p, k) of the wide block at point t is channel 1 of row 512·t + p at column k. -/
theorem wide_block_apply (c : Dev nD) (t : Fin cfg0.N) (p : Fin 512) (k : Fin 4096) (r : Fin 4096) (hr : r.val = t.val * 512 + p.val) :
    iblk m ρ c 0 t (ix2 p k) = P m c (ix3 r (1 : Fin 2) k) := by
  obtain ⟨e0, e1, -, -, -, -⟩ := idx_facts t
  have hk := k.isLt
  show V m ρ c main_v0 (((cfg0.win 0).blk t).view.emb (ix2 p k)) = _
  rw [V_v0]
  have he : ((cfg0.win 0).blk t).view.emb (ix2 p k) = ix2 r (⟨4096 + k.val, by omega⟩ : Fin 8192) := by
    funext a; apply Fin.ext
    match a with
    | ⟨0, _⟩ => show win0_0.index t (0 : Fin 2) * 512 + 1 * p.val = r.val; omega
    | ⟨1, _⟩ => show win0_0.index t (1 : Fin 2) * 4096 + 1 * k.val = 4096 + k.val; omega
  rw [he]
  exact Cert.MergeLast.merge_4096x2x4096_channel1 (P m c) shapeCasts_S4096x2x4096_S4096x8192 r k _ rfl

/-- Entry (p, q) of the narrow block at point t is channel 0 of row 512·t + p at column q. -/
theorem narrow_block_apply (c : Dev nD) (t : Fin cfg0.N) (p : Fin 512) (q : Fin 128) (r : Fin 4096) (hr : r.val = t.val * 512 + p.val) :
    iblk m ρ c 1 t (ix2 p q) = P m c (ix3 r (0 : Fin 2) (⟨q.val, lt_trans q.isLt (by decide)⟩ : Fin 4096)) := by
  obtain ⟨-, -, e2, e3, -, -⟩ := idx_facts t
  have hq := q.isLt
  show V m ρ c main_v0 (((cfg0.win 1).blk t).view.emb (ix2 p q)) = _
  rw [V_v0]
  have he : ((cfg0.win 1).blk t).view.emb (ix2 p q) = ix2 r (⟨q.val, by omega⟩ : Fin 8192) := by
    funext a; apply Fin.ext
    match a with
    | ⟨0, _⟩ => show win0_1.index t (0 : Fin 2) * 512 + 1 * p.val = r.val; omega
    | ⟨1, _⟩ => show win0_1.index t (1 : Fin 2) * 128 + 1 * q.val = q.val; omega
  rw [he]
  exact Cert.MergeLast.merge_4096x2x4096_channel0 (P m c) shapeCasts_S4096x2x4096_S4096x8192 r
    (⟨q.val, lt_trans q.isLt (by decide)⟩ : Fin 4096) _ rfl

/-! ## What each point writes back, and the result array after the region -/

/-- Grid point t writes back rows 512·t .. 512·t + 511 of the flipped array's first 128 columns. -/
theorem flushed_eq (c : Dev nD) (t : Fin cfg0.N) :
    (dats m ρ 0 c).flushed 2 t = ((cfg0.win 2).blk t).view.read (Elt Ideal) (Cert.Spec.head (P m c)) := by
  show (cfg0.win 2).cut (grid0.coords t) ((dats m ρ 0 c).after 2 t) = _
  rw [after0_2]
  obtain ⟨-, -, -, -, e4, e5⟩ := idx_facts t
  have ht : t.val < 8 := Nat.lt_of_lt_of_eq t.isLt N_0
  funext y
  obtain ⟨p, q, rfl⟩ : ∃ (p : Fin 512) (q : Fin 128), y = ix2 p q := ⟨y 0, y 1, eq_ix2 y⟩
  have hp := p.isLt
  have hq := q.isLt
  have hr : t.val * 512 + p.val < 4096 := by omega
  show out2 (iblk m ρ c 0 t) (iblk m ρ c 1 t) (ix2 p q) = Cert.Spec.head (P m c) (((cfg0.win 2).blk t).view.emb (ix2 p q))
  refine (Cert.KernelIdeal.Payload.out2_apply (iblk m ρ c 0 t) (iblk m ρ c 1 t) p q).trans ?_
  have he : ((cfg0.win 2).blk t).view.emb (ix2 p q) = ix2 (⟨t.val * 512 + p.val, hr⟩ : Fin 4096) q := by
    funext a; apply Fin.ext
    match a with
    | ⟨0, _⟩ => show win0_2.index t (0 : Fin 2) * 512 + 1 * p.val = t.val * 512 + p.val; omega
    | ⟨1, _⟩ => show win0_2.index t (1 : Fin 2) * 128 + 1 * q.val = q.val; omega
  rw [he]
  simp only [wide_block_apply m ρ c t p _ (⟨t.val * 512 + p.val, hr⟩ : Fin 4096) rfl,
    narrow_block_apply m ρ c t p q (⟨t.val * 512 + p.val, hr⟩ : Fin 4096) rfl]
  rfl

/-- An index of the result array is in point t's block iff its row is in band t (and its column in 0..127). -/
theorem mem_blk (t : Fin cfg0.N) (i : S4096x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v1).slice (win0_2.rect t)).set ↔ _
  rw [View.set_slice_whole, Rect.mem_set_unit]
  exact Iff.rfl

/-- The eight row bands cover the result array: row r is in band r / 512. -/
theorem cover (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  have hN : (i 0).val / 512 < cfg0.N := by rw [show cfg0.N = 8 from N_0]; omega
  refine ⟨⟨(i 0).val / 512, hN⟩, flush0_2 _, ?_⟩
  obtain ⟨-, -, -, -, e4, e5⟩ := idx_facts ⟨(i 0).val / 512, hN⟩
  rw [mem_blk]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hN⟩ (1 : Fin 2) * 128 ≤ (i 1).val ∧ (i 1).val < win0_2.index ⟨(i 0).val / 512, hN⟩ (1 : Fin 2) * 128 + 128
    rw [e5]; omega

/-- THE RESULT ARRAY after the region: the flipped array's first 128 columns. -/
theorem final (c : Dev nD) : (dats m ρ 0 c).arrAt 2 cfg0.N = Cert.Spec.head (P m c) :=
  (dats m ρ 0 c).arrAt_eq_of_cover 2 (Cert.Spec.head (P m c)) (fun t _ => flushed_eq m ρ c t) cover

/-! ## The operations after the region -/

/-- The value at the end: the two scaled mean squared differences of the specification, of the arguments as launched. -/
theorem Wend_result (c : Dev nD) :
    Wend m ρ c (Proc.devRef .tc main_v25)
      = Cert.Spec.result reducesTo_S4096x3_S_d0_1 h_S_ bcast_S_S4096x3 (P m c) (T m c) := by
  show StableHlo.after hostOps1 (W1 m ρ c) (Proc.devRef .tc main_v25) = _
  after_results_simp
  rw [W1_result, final, W1_other m ρ c main_arg1 (by decide)]
  have hT : StableHlo.after hostOps0 (V₀ m ρ c) (Proc.devRef .tc main_arg1) = T m c := by
    after_results
  rw [hT]
  unfold Cert.Spec.result
  rw [← Cert.KernelIdeal.Tail.lo_of_head (P m c), ← Cert.KernelIdeal.Tail.hi_of_head (P m c),
    ← Cert.KernelIdeal.Tail.lo_of_target (T m c), ← Cert.KernelIdeal.Tail.hi_of_target (T m c)]
  rfl

/-- THE RUN, read: every weakly fair execution of @main terminates, nothing faulting, with the result at the
    specification's value of the arguments and both arguments unchanged. -/
theorem run : θ_run defs (onTc (τ := τ) (main (F := Ideal))) ⟨m, fun _ => 0, ρ⟩ (fun r => ∀ c : Dev nD,
      r.2.mem ((c.tc : Thread nD τ).loc main_v25) = Cert.Spec.result reducesTo_S4096x3_S_d0_1 h_S_ bcast_S_S4096x3 (P m c) (T m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_v25 rfl)).trans (Wend_result m ρ c),
        (h c _ (mem_uc main_arg0 rfl)).trans (Wend_arg0 m ρ c),
        (h c _ (mem_uc main_arg1 rfl)).trans (Wend_arg1 m ρ c)⟩)
    (run_main m ρ)

end Cert.KernelIdeal.Result

end
-- ==== Proof.RefSide.lean ====
/-
  The reference program's stages, read on the extended reals, are the specification's functions.

  Entry (p, q) of the offset array's channel 0 and channel 1 is P(p, ch, q) + ε.  The host's sum over a row of channel 1's
  squares starts from the zero word, which is the real 0, so it is the plain sum; its square root floored at δ, kept as a
  column and repeated along the row, is the row's length at every column.  The select on "the normalized entry is below
  1/2" between the negated and the plain channel-0 entry is then the flipped entry.  Columns 0..2 and 3..5 of that array,
  and of channel 0 of the second argument, are the four arrays the two scaled mean squared differences are taken of.
-/
import proofs.«111559_j61589831024942_2_alg».proof.Proof.Gen.ReferenceIdeal.Read
import proofs.«111559_j61589831024942_2_alg».proof.Proof.Spec

noncomputable section

open scoped BigOperators

namespace Cert.RefSide

open Cert.ReferenceIdeal Cert.ReferenceIdeal.Gen Idealize.ShloMosaic Idealize.ShloMosaic.TcCoe Idealize.SL.Sem
open Idealize.ShloMosaic.ValueIdx
open Cert.ReferenceIdeal.Read

/-- An argument array: an extended real at every index (b, ch, k). -/
abbrev In : Type := (⟨S4096x2x4096, .f32⟩ : BufTy).Contents (Elt Ideal)

/-- Entry (p, q) of channel 0 of the offset array is P(p, 0, q) + ε: row-major position p · 4096 + q of the
    [4096, 1, 4096] slice is its entry (p, 0, q). -/
theorem shifted0_apply (x0 : In) (p q : Fin 4096) :
    val_main_v3 (F := Ideal) x0 (ix2 p q) = Cert.Spec.shifted x0 p 0 q := by
  have hp := p.isLt
  have hq := q.isLt
  have hidx : idx_main_v2 (idx_main_v3 (ix2 p q)) = ix3 p (0 : Fin 2) q :=
    funext fun a => Fin.ext (by
      match a with
      | ⟨0, _⟩ => show (p.val * 4096 + q.val) / 4096 = p.val; omega
      | ⟨1, _⟩ => rfl
      | ⟨2, _⟩ => show (p.val * 4096 + q.val) % 4096 = q.val; omega)
  rw [val_main_v3_apply, val_main_v2_apply, val_main_v1_apply, val_main_v0_apply, val_main_cst_apply, hidx]
  rfl

/-- Entry (p, q) of channel 1 of the offset array is P(p, 1, q) + ε. -/
theorem shifted1_apply (x0 : In) (p q : Fin 4096) :
    val_main_v5 (F := Ideal) x0 (ix2 p q) = Cert.Spec.shifted x0 p 1 q := by
  have hp := p.isLt
  have hq := q.isLt
  have hidx : idx_main_v4 (idx_main_v5 (ix2 p q)) = ix3 p (1 : Fin 2) q :=
    funext fun a => Fin.ext (by
      match a with
      | ⟨0, _⟩ => show (p.val * 4096 + q.val) / 4096 = p.val; omega
      | ⟨1, _⟩ => rfl
      | ⟨2, _⟩ => show (p.val * 4096 + q.val) % 4096 = q.val; omega)
  rw [val_main_v5_apply, val_main_v4_apply, val_main_v1_apply, val_main_v0_apply, val_main_cst_apply, hidx]
  rfl

/-- The row's length, repeated along the row: at (p, q) it is max(√(Σ_k x1(k)²), δ) of row p.  The host's sum starts from
    the zero word, the real 0, so 0 + Σ is Σ. -/
theorem len_apply (x0 : In) (p q : Fin 4096) :
    val_main_v9 (F := Ideal) x0 (ix2 p q) = Cert.Spec.len x0 p := by
  have hidx : ∀ k : Fin 4096, idx_main_call0_v1 (idx_main_call0_v2 (idx_main_v9 (ix2 p q))) k = ix2 p k :=
    fun k => funext fun a => Fin.ext (by match a with | ⟨0, _⟩ => rfl | ⟨1, _⟩ => rfl)
  rw [val_main_v9_apply, val_main_v8_apply, val_main_v6_apply, val_main_v7_apply, val_main_cst_0_apply,
    val_main_call0_v2_apply, val_main_call0_v1_apply, val_main_call0_cst_apply]
  simp only [val_main_call0_v0_apply, hidx, shifted1_apply, Ideal.ofBits_def, Ideal.ofBits_zero_f32, zero_add,
    Ideal.mulf_def, Ideal.maximumf_def, Ideal.hostUnary_sqrt_def]
  rfl

/-- Entry (p, q) of the selected array is the flipped entry: -x0(q) where x1(q) / L(p) < 1/2, and x0(q) otherwise. -/
theorem flipped_apply (x0 : In) (p q : Fin 4096) :
    val_main_v14 (F := Ideal) x0 (ix2 p q) = Cert.Spec.flipped x0 p q := by
  rw [val_main_v14_apply, val_main_v12_apply, val_main_v13_apply, val_main_v10_apply, val_main_v11_apply,
    val_main_cst_1_apply, shifted0_apply, shifted1_apply, len_apply]
  rfl

/-- Columns 0..2 of the flipped array. -/
theorem flippedLo_eq (x0 : In) : Cert.ReferenceIdeal.Read.val_main_v15 (F := Ideal) x0 = Cert.Spec.flippedLo x0 := by
  funext i
  have hidx : idx_main_v15 i
      = ix2 (⟨(i 0).val, (i 0).isLt⟩ : Fin 4096) (⟨(i 1).val, lt_trans (i 1).isLt (by decide)⟩ : Fin 4096) :=
    funext fun a => Fin.ext (by match a with | ⟨0, _⟩ => rfl | ⟨1, _⟩ => rfl)
  rw [val_main_v15_apply, hidx, flipped_apply]
  rfl

/-- Columns 3..5 of the flipped array: column 3 + j is column j + 3. -/
theorem flippedHi_eq (x0 : In) : Cert.ReferenceIdeal.Read.val_main_v18 (F := Ideal) x0 = Cert.Spec.flippedHi x0 := by
  funext i
  have hidx : idx_main_v18 i
      = ix2 (⟨(i 0).val, (i 0).isLt⟩ : Fin 4096)
          (⟨(i 1).val + 3, Nat.lt_of_lt_of_le (Nat.add_lt_add_right (i 1).isLt 3) (by decide)⟩ : Fin 4096) :=
    funext fun a => Fin.ext (by
      match a with
      | ⟨0, _⟩ => rfl
      | ⟨1, _⟩ => exact Nat.add_comm 3 (i 1).val)
  rw [val_main_v18_apply, hidx, flipped_apply]
  rfl

/-- Columns 0..2 of channel 0 of the second argument: row-major position b · 3 + j of the [4096, 1, 3] slice is its
    entry (b, 0, j). -/
theorem targetLo_eq (x1 : In) : Cert.ReferenceIdeal.Read.val_main_v22 (F := Ideal) x1 = Cert.Spec.targetLo x1 := by
  funext i
  have h0 : (i 0).val < 4096 := (i 0).isLt
  have h1 : (i 1).val < 3 := (i 1).isLt
  have hidx : idx_main_v21 (idx_main_v22 i)
      = ix3 (⟨(i 0).val, (i 0).isLt⟩ : Fin 4096) (0 : Fin 2)
          (⟨(i 1).val, lt_trans (i 1).isLt (by decide)⟩ : Fin 4096) :=
    funext fun a => Fin.ext (by
      match a with
      | ⟨0, _⟩ => show ((i 0).val * 3 + (i 1).val) / 3 = (i 0).val; omega
      | ⟨1, _⟩ => rfl
      | ⟨2, _⟩ => show ((i 0).val * 3 + (i 1).val) % 3 = (i 1).val; omega)
  rw [val_main_v22_apply, val_main_v21_apply, hidx]
  rfl

/-- Columns 3..5 of channel 0 of the second argument. -/
theorem targetHi_eq (x1 : In) : Cert.ReferenceIdeal.Read.val_main_v26 (F := Ideal) x1 = Cert.Spec.targetHi x1 := by
  funext i
  have h0 : (i 0).val < 4096 := (i 0).isLt
  have h1 : (i 1).val < 3 := (i 1).isLt
  have hidx : idx_main_v25 (idx_main_v26 i)
      = ix3 (⟨(i 0).val, (i 0).isLt⟩ : Fin 4096) (0 : Fin 2)
          (⟨(i 1).val + 3, Nat.lt_of_lt_of_le (Nat.add_lt_add_right (i 1).isLt 3) (by decide)⟩ : Fin 4096) :=
    funext fun a => Fin.ext (by
      match a with
      | ⟨0, _⟩ => show ((i 0).val * 3 + (i 1).val) / 3 = (i 0).val; omega
      | ⟨1, _⟩ => rfl
      | ⟨2, _⟩ => show 3 + ((i 0).val * 3 + (i 1).val) % 3 = (i 1).val + 3; omega)
  rw [val_main_v26_apply, val_main_v25_apply, hidx]
  rfl

/-- The run's result is the specification's function of the two argument arrays: the last stages are, operation for
    operation, the two scaled mean squared differences added, taken of the four column arrays above. -/
theorem result_eq (m : (ℓ : Loc nD τ sig) → Buf (Elt Ideal) ℓ) (c : Dev nD) :
    Cert.ReferenceIdeal.Value.res_out0 (F := Ideal) m c
      = Cert.Spec.result reducesTo_S4096x3_S_d0_1 h_S_ bcast_S_S4096x3 (m ((c.tc : Thread nD τ).loc main_arg0)) (m ((c.tc : Thread nD τ).loc main_arg1)) := by
  refine (val_main_v37_eq m c).trans ?_
  unfold Cert.Spec.result
  rw [← flippedLo_eq, ← flippedHi_eq, ← targetLo_eq, ← targetHi_eq]
  rfl

end Cert.RefSide

end
-- ==== Proof.lean ====
/-
  The five claims.

  The kernel program is one reshape of the first argument (its last two axes merged), one kernel region over eight row
  bands that reads the merged array through two windows and writes a [4096, 128] result, and thirty-two operations on
  that result and on the second argument.  Its run — at either reading of the floats — is the launch of those three
  stretches in order; both argument arrays end as launched, which is the frame of the kernel and of its idealization.
  The reference is host operations only, and its frame is its run with the result dropped.  The idealization rewrote
  nothing, so it preserves the kernel trivially.

  On the extended reals both programs end at the same value: with x0 = P(b,0,·) + ε, x1 = P(b,1,·) + ε and
  L(b) = max(√(Σ_k x1(k)²), δ), the array whose entry (b, k) is -x0(k) where x1(k) / L(b) < 1/2 and x0(k) otherwise is
  what the reference selects over all 4096 columns and what the kernel writes for the first 128; only columns 0..5 are
  read afterwards, by the same last operations in both.  The kernel's 0 - y and the reference's -y are equal on every
  extended real, and the host's sum from the zero word is the plain sum; no other law is used, and finiteness of the
  inputs is not.
-/
import proofs.«111559_j61589831024942_2_alg».proof.Defs
import proofs.«111559_j61589831024942_2_alg».proof.Proof.Gen.Kernel
import proofs.«111559_j61589831024942_2_alg».proof.Proof.Gen.KernelIdeal
import proofs.«111559_j61589831024942_2_alg».proof.Proof.Gen.ReferenceIdeal
import proofs.«111559_j61589831024942_2_alg».proof.Proof.Gen.ReferenceIdeal.Run
import proofs.«111559_j61589831024942_2_alg».proof.Proof.Gen.Pre_finite_inputs
import proofs.«111559_j61589831024942_2_alg».proof.Proof.KFrame
import proofs.«111559_j61589831024942_2_alg».proof.Proof.KIValue
import proofs.«111559_j61589831024942_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments unchanged. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, both programs end at the specification's value of
    the arguments. -/
theorem algebraic : Cert.algebraic_KernelIdeal_ReferenceIdeal := by
  intro m ρ m' ρ' _ hagree
  refine ⟨fun c => Cert.Spec.result Cert.KernelIdeal.Facts₀.reducesTo_S4096x3_S_d0_1 Cert.KernelIdeal.Facts₀.h_S_
      Cert.KernelIdeal.Facts₀.bcast_S_S4096x3 (Cert.KernelIdeal.Result.P m c) (Cert.KernelIdeal.Result.T m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.RefSide.result_eq m' c).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
